-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x512 : Shape := ⟨2, ![1024, 512]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S1x4096, .f32⟩
  | .hbm, ⟨8, _⟩ => ⟨S8192x4096, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .f32 = 32 ∨ (Rect.block (s := S8192x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S8192x4096, .f32⟩
  | .hbm, ⟨7, _⟩ => ⟨S8192x4096, .i1⟩
  | .hbm, ⟨8, _⟩ => ⟨S_, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S_, .f32⟩
  | .hbm, ⟨15, _⟩ => ⟨S4096x4096, .f32⟩
  | .hbm, ⟨16, _⟩ => ⟨S4096x4096, .i1⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S8192x4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S4096, .f32⟩
  | .hbm, ⟨28, _⟩ => ⟨S1x4096, .f32⟩
  | .hbm, ⟨29, _⟩ => ⟨S8192x4096, .f32⟩
  | .hbm, ⟨30, _⟩ => ⟨S8192x4096, .f32⟩
  | .hbm, ⟨31, _⟩ => ⟨S1x4096, .f32⟩
  | .hbm, ⟨32, _⟩ => ⟨S8192x4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v2 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_v5 : Ref sig .tc := ⟨.hbm, 16, rfl⟩
abbrev main_cst_3 : Ref sig .tc := ⟨.hbm, 17, rfl⟩
abbrev main_cst_4 : Ref sig .tc := ⟨.hbm, 18, rfl⟩
abbrev main_call1_v0 : Ref sig .tc := ⟨.hbm, 19, rfl⟩
abbrev main_call1_v1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.LibBlockedSum.lean ====
/-
  A sum of a·b terms taken b at a time.

  In any commutative additive monoid — the extended reals included, where no cancellation or distributivity is
  available but addition is still associative and commutative — the sum of `f 0, …, f (a·b − 1)` equals the sum over
  the a consecutive stretches of length b of each stretch's own sum. This is the whole algebra behind a matrix product
  whose contraction axis is cut into blocks that are accumulated one after the other.
-/
import Idealize.ShloMosaic.Lib.ValueIdx

namespace Cert.Lib.BlockedSum

open scoped BigOperators

/-- Over ranges: the stretches `b·s, …, b·s + b − 1` for `s < a` exhaust `0, …, a·b − 1`. -/
theorem sum_range_blocks {M : Type*} [AddCommMonoid M] (f : ℕ → M) (b : ℕ) :
    ∀ a : ℕ, ∑ s ∈ Finset.range a, ∑ k ∈ Finset.range b, f (b * s + k) = ∑ k ∈ Finset.range (a * b), f k
  | 0 => by simp
  | a + 1 => by
    rw [Finset.sum_range_succ, sum_range_blocks f b a, Nat.succ_mul, Finset.sum_range_add, Nat.mul_comm b a]

/-- The same with the inner and the total sum over `Fin`: the form in which a block's inner product and the whole
    inner product are read off the two programs. -/
theorem sum_fin_blocks {M : Type*} [AddCommMonoid M] (f : ℕ → M) (a b : ℕ) :
    ∑ s ∈ Finset.range a, ∑ k : Fin b, f (b * s + k.val) = ∑ k : Fin (a * b), f k.val := by
  rw [Fin.sum_univ_eq_sum_range f (a * b), ← sum_range_blocks f b a]
  exact Finset.sum_congr rfl fun s _ => Fin.sum_univ_eq_sum_range (fun k => f (b * s + k)) b

end Cert.Lib.BlockedSum
-- ==== Proof.Spec.lean ====
/-
  The binarized dense layer with a batch-norm shift, as one function of the argument arrays.

  Every entry of the input matrix X (8192 × 4096) and of the weight matrix W (4096 × 4096) is replaced by its sign,
  +1 for an entry that is at least zero and -1 otherwise. Entry (b, n) of the layer is the inner product of row b of
  sign X with column n of sign W, from which the moving mean of feature n is subtracted; the difference is multiplied
  by the reciprocal square root of the moving variance plus a small constant, and the shift of feature n is added.
  Everything is read on the extended reals, where the signs are the reals +1 and -1 whatever the entries are.

  The contraction over the 4096 inner positions may be cut into 8 consecutive stretches of 512: the stretch sums,
  added one after the other onto zero, give the whole inner product, because addition on the extended reals is
  associative and commutative and zero is neutral. No cancellation or distributivity is involved, so nothing needs
  to be finite.
-/
import Idealize.ShloMosaic.PureOps.Ideal
import Idealize.ShloMosaic.Lib.ValueIdx
import proofs.«112949_j79912161509543_1_alg».proof.Proof.LibBlockedSum

noncomputable section

namespace Cert.BinDense

open Idealize.ShloMosaic Idealize.ShloMosaic.ValueIdx
open scoped BigOperators

/-- The sign of an extended real, zero counted as positive: +1 when the entry is at least zero, otherwise -1. -/
def sgn (x : EReal) : EReal :=
  Scalar.select (FloatOps.cmpf (F := Ideal) (φ := .f32) .oge x (FloatOps.ofBits (F := Ideal) .f32 0x00000000#32))
    (FloatOps.ofBits (F := Ideal) .f32 0x3F800000#32) (FloatOps.ofBits (F := Ideal) .f32 0xBF800000#32)

/-- An a × b array read at a pair of naturals (zero outside its extents, which is never consulted). -/
def at2 {a b : Nat} (A : (⟨2, ![a, b]⟩ : Shape).Idx → EReal) (p q : Nat) : EReal :=
  if h : p < a ∧ q < b then A (ix2 ⟨p, h.1⟩ ⟨q, h.2⟩) else 0

theorem at2_ix2 {a b : Nat} (A : (⟨2, ![a, b]⟩ : Shape).Idx → EReal) (p : Fin a) (q : Fin b) :
    A (ix2 p q) = at2 A p.val q.val := by
  unfold at2
  rw [dif_pos ⟨p.isLt, q.isLt⟩]

/-- One term of the inner product of row p of sign X with column q of sign W, at inner position k. -/
def term (X : (⟨2, ![8192, 4096]⟩ : Shape).Idx → EReal) (W : (⟨2, ![4096, 4096]⟩ : Shape).Idx → EReal)
    (p q k : Nat) : EReal :=
  sgn (at2 X p k) * sgn (at2 W k q)

/-- Entry (p, q) of sign X · sign W. -/
def dense (X : (⟨2, ![8192, 4096]⟩ : Shape).Idx → EReal) (W : (⟨2, ![4096, 4096]⟩ : Shape).Idx → EReal)
    (p q : Nat) : EReal :=
  ∑ k : Fin 4096, term X W p q k.val

/-- The inner product taken 512 positions at a time: the 8 stretch sums add up to the whole. -/
theorem dense_blocks (X : (⟨2, ![8192, 4096]⟩ : Shape).Idx → EReal) (W : (⟨2, ![4096, 4096]⟩ : Shape).Idx → EReal)
    (p q : Nat) :
    ∑ s ∈ Finset.range 8, ∑ k : Fin 512, term X W p q (512 * s + k.val) = dense X W p q :=
  Cert.Lib.BlockedSum.sum_fin_blocks (fun k => term X W p q k) 8 512

/-- The layer's entry at (p, q) from the inner product y: (y - mean q) · rsqrt (var q + ε) + shift q. -/
def norm (β μ v : (⟨1, ![4096]⟩ : Shape).Idx → EReal) (q : Fin 4096) (y : EReal) : EReal :=
  (y - μ (ix1 q)) * Ideal.rsqrt (v (ix1 q) + Ideal.ofBits .f32 0x3A83126F#32) + β (ix1 q)

/-- The layer's entry (p, q). -/
def entry (X : (⟨2, ![8192, 4096]⟩ : Shape).Idx → EReal) (W : (⟨2, ![4096, 4096]⟩ : Shape).Idx → EReal)
    (β μ v : (⟨1, ![4096]⟩ : Shape).Idx → EReal) (p : Fin 8192) (q : Fin 4096) : EReal :=
  norm β μ v q (dense X W p.val q.val)

/-- The whole result array. -/
def G (X : (⟨2, ![8192, 4096]⟩ : Shape).Idx → EReal) (W : (⟨2, ![4096, 4096]⟩ : Shape).Idx → EReal)
    (β μ v : (⟨1, ![4096]⟩ : Shape).Idx → EReal) : (⟨2, ![8192, 4096]⟩ : Shape).Idx → EReal := fun i =>
  entry X W β μ v (i 0) (i 1)

theorem G_apply (X : (⟨2, ![8192, 4096]⟩ : Shape).Idx → EReal) (W : (⟨2, ![4096, 4096]⟩ : Shape).Idx → EReal)
    (β μ v : (⟨1, ![4096]⟩ : Shape).Idx → EReal) (p : Fin 8192) (q : Fin 4096) :
    G X W β μ v (ix2 p q) = entry X W β μ v p q := rfl

end Cert.BinDense

end
-- ==== Proof.RefRead.lean ====
/-
  The reference program computes the layer function of Spec, index by index.

  Read one operation at a time, the reference's result at (b, n) is the inner product over k of
  select (X (b, k) ≥ 0) 1 (-1) and select (W (k, n) ≥ 0) 1 (-1), minus the mean at n, times the host's reciprocal
  square root of the variance at n plus the constant, plus the shift at n: the two rows broadcast over the batch are
  read at their column, and the host's reciprocal square root is, on the extended reals, the same function the
  specification names.
-/
import proofs.«112949_j79912161509543_1_alg».proof.Proof.Gen.ReferenceIdeal.Read
import proofs.«112949_j79912161509543_1_alg».proof.Proof.Spec

noncomputable section

namespace Cert.ReferenceIdeal.RefValue

open Cert.ReferenceIdeal Cert.ReferenceIdeal.Read Cert.BinDense
open Idealize.ShloMosaic Idealize.ShloMosaic.ValueIdx
open scoped BigOperators

/-- The binarized input: the select between the two splat constants on the comparison with the splat zero is the
    sign of the entry. -/
theorem signX (x0 : (⟨S8192x4096, .f32⟩ : BufTy).Contents (Elt Ideal)) (j : S8192x4096.Idx) :
    val_main_v3 (F := Ideal) x0 j = sgn (x0 j) := by
  rw [val_main_v3_apply, val_main_v2_apply, val_main_v1_apply, val_main_v0_apply, val_main_cst_apply,
    val_main_call0_v0_apply, val_main_cst_0_apply, val_main_call0_v1_apply, val_main_cst_1_apply]
  rfl

/-- The binarized weights, likewise. -/
theorem signW (x1 : (⟨S4096x4096, .f32⟩ : BufTy).Contents (Elt Ideal)) (j : S4096x4096.Idx) :
    val_main_v7 (F := Ideal) x1 j = sgn (x1 j) := by
  rw [val_main_v7_apply, val_main_v6_apply, val_main_v5_apply, val_main_v4_apply, val_main_cst_2_apply,
    val_main_call1_v0_apply, val_main_cst_3_apply, val_main_call1_v1_apply, val_main_cst_4_apply]
  rfl

/-- The reference's result is the specification's array. -/
theorem result_eq (x0 : (⟨S8192x4096, .f32⟩ : BufTy).Contents (Elt Ideal))
    (x1 : (⟨S4096x4096, .f32⟩ : BufTy).Contents (Elt Ideal))
    (x2 x3 x4 : (⟨S4096, .f32⟩ : BufTy).Contents (Elt Ideal)) :
    val_main_v20 (F := Ideal) x0 x1 x2 x3 x4 = G x0 x1 x2 x3 x4 := by
  funext i
  obtain ⟨p, q, rfl⟩ : ∃ (p : Fin 8192) (q : Fin 4096), i = ix2 p q := ⟨i 0, i 1, eq_ix2 i⟩
  have eL : ∀ k : Fin 4096, lidx_main_v8 (ix2 p q) k = ix2 p k := fun k =>
    funext fun a => Fin.ext (by match a with | ⟨0, _⟩ => rfl | ⟨1, _⟩ => rfl)
  have eR : ∀ k : Fin 4096, ridx_main_v8 (ix2 p q) k = ix2 k q := fun k =>
    funext fun a => Fin.ext (by match a with | ⟨0, _⟩ => rfl | ⟨1, _⟩ => rfl)
  have e1 : idx_main_v12 (idx_main_v13 (ix2 p q)) = ix1 q :=
    funext fun a => Fin.ext (by match a with | ⟨0, _⟩ => rfl)
  have e2 : idx_main_v15 (idx_main_v16 (ix2 p q)) = ix1 q :=
    funext fun a => Fin.ext (by match a with | ⟨0, _⟩ => rfl)
  have e3 : idx_main_v18 (idx_main_v19 (ix2 p q)) = ix1 q :=
    funext fun a => Fin.ext (by match a with | ⟨0, _⟩ => rfl)
  have hsum : (∑ k : Fin 4096, val_main_v3 (F := Ideal) x0 (lidx_main_v8 (ix2 p q) k) * val_main_v7 (F := Ideal) x1 (ridx_main_v8 (ix2 p q) k))
      = dense x0 x1 p.val q.val := by
    unfold dense term
    refine Finset.sum_congr rfl fun k _ => ?_
    rw [signX, signW, eL, eR, at2_ix2 x0 p k, at2_ix2 x1 k q]
  rw [val_main_v20_apply, val_main_v17_apply, val_main_v14_apply, val_main_v8_apply, hsum, val_main_v13_apply,
    val_main_v12_apply, e1, val_main_v16_apply, val_main_v15_apply, e2, val_main_v11_apply, val_main_v10_apply,
    val_main_v9_apply, val_main_cst_5_apply, val_main_v19_apply, val_main_v18_apply, e3, G_apply]
  rfl

end Cert.ReferenceIdeal.RefValue

end
-- ==== Proof.LibWholeStores.lean ====
/-
  Whole-buffer loads and stores. A kernel body that keeps an accumulator in a buffer reads and writes it through
  the rectangle at zero offsets of the buffer's own extents. Through that rectangle a load reads the contents, a
  store leaves its payload whatever was stored before, and a load after such a store reads the payload. The
  statements are over any view, any value type and any earlier list of stores.
-/
import Idealize.ShloMosaic.Lib.Pipeline.Value
import Idealize.ShloMosaic.Lib.Pipeline.Frame
import Idealize.ShloMosaic.Lib.Pipeline.FrameBody

noncomputable section

namespace Idealize.ShloMosaic.WholeStores

open Idealize.ShloMosaic

variable {Val : EltTy → Type} {S : Shape} {e : EltTy}

/-- After a list of stores whose LAST one goes through the whole rectangle, the buffer reads as that store's
    payload: earlier stores and earlier contents are overwritten. -/
theorem read_writes_whole_last [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load through the whole rectangle, after stores the last of which went through the whole rectangle, reads
    that store's payload. -/
theorem readCov_whole_last [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, View.mem_set_unit_zero h inb y⟩),
    View.canon_cons_unit_zero h inb, View.ld_unit_zero h inb]

/-- A load through the whole rectangle of a whole buffer whose contents read as X reads X. -/
theorem readAt_whole_unread {sig : RefSig} {κ : Kind} {sp : Space} {m : Memref sig κ sp S e} (hm : m.IsWhole)
    {off : Fin S.rank → Nat} (h : off = fun _ => 0) (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Idealize.ShloMosaic.WholeStores

end
-- ==== Proof.Pieces.lean ====
/-
  What each of the body's three control cases leaves in the carried accumulator and in the output block, as the
  body's own arithmetic of the blocks it loaded.

  Every load and store of the body goes through the whole rectangle of its buffer, so a load reads the buffer's
  contents, a store leaves its payload whatever was there, and a load after a store reads that payload. Hence:
  at the first step of a run the accumulator ends at the step's update of the zero block; at a later step at the
  update of what the step before left; and at the last step the output block is the normalisation of the accumulator
  that step has just updated.
-/
import proofs.«112949_j79912161509543_1_alg».proof.Proof.Gen.KernelIdeal.Value
import proofs.«112949_j79912161509543_1_alg».proof.Proof.LibWholeStores
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- The offsets of every rectangle of the body are zero. -/
theorem off_zero : (![0, 0] : Fin 2 → Nat) = fun _ => 0 := funext fun a => by
  match a with
  | ⟨0, _⟩ => rfl
  | ⟨1, _⟩ => rfl

/-- First step of a run: the accumulator is zeroed and then updated. -/
theorem acc_first (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i) (x0 : Vec F S1024x512 .f32) (x1 : Vec F S512x1024 .f32) (x2 : Vec F S1x1024 .f32) (x3 : Vec F S1x1024 .f32) (x4 : Vec F S1x1024 .f32) :
    sout0_A_0 c i arg3 harg3 arg4 harg4 arg5 harg5 arg6 harg6 arg7 harg7 arg8 harg8 arg9 harg9 hc0 hc1 x0 x1 x2 x3 x4 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero off_zero, WholeStores.readAt_whole_unread harg3 off_zero,
    WholeStores.readAt_whole_unread harg4 off_zero, View.readCov_unit_zero _ off_zero]

/-- A middle step: the accumulator the step before left is updated. -/
theorem acc_middle (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i) (x0 : Vec F S1024x512 .f32) (x1 : Vec F S512x1024 .f32) (x2 : Vec F S1x1024 .f32) (x3 : Vec F S1x1024 .f32) (x4 : Vec F S1x1024 .f32) (xs0 : Vec F S1024x1024 .f32) :
    sout0_B_0 c i arg3 harg3 arg4 harg4 arg5 harg5 arg6 harg6 arg7 harg7 arg8 harg8 arg9 harg9 hc0 hc1 x0 x1 x2 x3 x4 xs0 = k0_pay2 x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  sl_unfold_words
  rw [View.canon_unit_zero off_zero, WholeStores.readAt_whole_unread harg3 off_zero,
    WholeStores.readAt_whole_unread harg4 off_zero, WholeStores.readAt_whole_unread harg9 off_zero]

/-- The last step updates the accumulator the same way … -/
theorem acc_last (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x512 .f32) (x1 : Vec F S512x1024 .f32) (x2 : Vec F S1x1024 .f32) (x3 : Vec F S1x1024 .f32) (x4 : Vec F S1x1024 .f32) (xs0 : Vec F S1024x1024 .f32) :
    sout0_C_0 c i arg3 harg3 arg4 harg4 arg5 harg5 arg6 harg6 arg7 harg7 arg8 harg8 arg9 harg9 hc0 hc1 x0 x1 x2 x3 x4 xs0 = k0_pay2 x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero off_zero, WholeStores.readAt_whole_unread harg3 off_zero,
    WholeStores.readAt_whole_unread harg4 off_zero, WholeStores.readAt_whole_unread harg9 off_zero]

/-- … and writes the output block: the updated accumulator normalised with the variance, mean and shift rows. -/
theorem out_last (c : Dev nD) (i : grid0.Coords) (arg3 : Memref sig .tc .vmem S1024x512 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i) (x0 : Vec F S1024x512 .f32) (x1 : Vec F S512x1024 .f32) (x2 : Vec F S1x1024 .f32) (x3 : Vec F S1x1024 .f32) (x4 : Vec F S1x1024 .f32) (xs0 : Vec F S1024x1024 .f32) :
    out0_C_5 c i arg3 harg3 arg4 harg4 arg5 harg5 arg6 harg6 arg7 harg7 arg8 harg8 arg9 harg9 hc0 hc1 x0 x1 x2 x3 x4 xs0 = k0_pay3 x4 (k0_pay2 x0 x1 xs0) x3 x2 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero off_zero, View.readCov_unit_zero _ off_zero,
    WholeStores.readAt_whole_unread harg7 off_zero, WholeStores.readAt_whole_unread harg3 off_zero,
    WholeStores.readAt_whole_unread harg4 off_zero, WholeStores.readAt_whole_unread harg9 off_zero,
    WholeStores.readAt_whole_unread harg6 off_zero, WholeStores.readAt_whole_unread harg5 off_zero]

end Cert.KernelIdeal.Pieces

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.PayloadRead.lean ====
/-
  The body's three payloads read at an index, on the extended reals.

  The zero block reads 0 everywhere. The update of an accumulator block A with an input block x (1024 × 512) and a
  weight block w (512 × 1024) reads, at (p, r), A (p, r) plus the inner product over the 512 positions k of the signs
  of x (p, k) and w (k, r): the comparison with the zero splat and the select between the splats of +1 and -1 give
  the sign, the change of float format is the identity on the extended reals, and the matrix unit's product into a zero
  accumulator is the plain sum. The normalisation of an accumulator block A with the variance, mean and shift rows
  reads (A (p, r) - mean r) · rsqrt (var r + ε) + shift r, each 1 × 1024 row read at its column r.
-/
import proofs.«112949_j79912161509543_1_alg».proof.Proof.Gen.KernelIdeal.Skeleton
import proofs.«112949_j79912161509543_1_alg».proof.Proof.Spec
import proofs.«112949_j79912161509543_1_alg».proof.Proof.LibPlainDot
import proofs.«112949_j79912161509543_1_alg».proof.Proof.LibRowBroadcasts
import Idealize.ShloMosaic.Lib.Pipeline.Value
import Idealize.ShloMosaic.PureOps.Ideal.Laws

noncomputable section

namespace Cert.KernelIdeal.PayloadRead

open Cert.KernelIdeal Cert.KernelIdeal.Gen Cert.BinDense
open Idealize.ShloMosaic Idealize.ShloMosaic.ValueIdx
open scoped BigOperators

/-- The zero block. -/
theorem zero_apply (p r : Fin 1024) : k0_pay1 (F := Ideal) (ix2 p r) = 0 := by
  unfold k0_pay1
  exact (congrFun (shapeCast_self _ _) (ix2 p r)).trans Ideal.ofBits_zero_f32

/-- The binarized input block at an entry is the sign of the entry. -/
theorem signs_x (x : Vec Ideal S1024x512 .f32) (j : S1024x512.Idx) :
    (truncf .bf16 (select (cmpf .oge (x : FVec Ideal S1024x512 .f32) (broadcast S1024x512 (Scalar.ofBits (F := Ideal) .f32 0x00000000#32)))
      (broadcast S1024x512 (Scalar.ofBits (F := Ideal) .f32 0x3F800000#32)) (broadcast S1024x512 (Scalar.ofBits (F := Ideal) .f32 0xBF800000#32))) bitsLt_bf16_f32
        : FVec Ideal S1024x512 .bf16) j = sgn (x j) := rfl

/-- The binarized weight block at an entry is the sign of the entry. -/
theorem signs_w (w : Vec Ideal S512x1024 .f32) (j : S512x1024.Idx) :
    (truncf .bf16 (select (cmpf .oge (w : FVec Ideal S512x1024 .f32) (broadcast S512x1024 (Scalar.ofBits (F := Ideal) .f32 0x00000000#32)))
      (broadcast S512x1024 (Scalar.ofBits (F := Ideal) .f32 0x3F800000#32)) (broadcast S512x1024 (Scalar.ofBits (F := Ideal) .f32 0xBF800000#32))) bitsLt_bf16_f32
        : FVec Ideal S512x1024 .bf16) j = sgn (w j) := rfl

/-- The update of an accumulator block: what it held plus the block's inner product of signs. -/
theorem update_apply (x : Vec Ideal S1024x512 .f32) (w : Vec Ideal S512x1024 .f32) (A : Vec Ideal S1024x1024 .f32)
    (p r : Fin 1024) :
    k0_pay2 (F := Ideal) x w A (ix2 p r) = A (ix2 p r) + ∑ k : Fin 512, sgn (x (ix2 p k)) * sgn (w (ix2 k r)) := by
  unfold k0_pay2
  refine (congrFun (shapeCast_self _ _) (ix2 p r)).trans ?_
  refine congrArg (A (ix2 p r) + ·) ?_
  refine (Cert.Lib.PlainDot.matmul_zero_apply dot_S1024x512_S512x1024_S1024x1024_1_0_0_1_n_n_wf none _ _ p r).trans ?_
  rfl

/-- The normalisation of an accumulator block with the variance, mean and shift rows. -/
theorem normalise_apply (var : Vec Ideal S1x1024 .f32) (A : Vec Ideal S1024x1024 .f32) (mean shift : Vec Ideal S1x1024 .f32)
    (p r : Fin 1024) :
    k0_pay3 (F := Ideal) var A mean shift (ix2 p r)
      = (A (ix2 p r) - mean (ix2 (0 : Fin 1) r)) * Ideal.rsqrt (var (ix2 (0 : Fin 1) r) + Ideal.ofBits .f32 0x3A83126F#32)
        + shift (ix2 (0 : Fin 1) r) := by
  unfold k0_pay3
  show (A (ix2 p r) - broadcastTo S1024x1024 (shapeCast S1x1024 mean shapeCasts_S1x1024_S1x1024) broadcasts_S1x1024_S1024x1024 (ix2 p r))
      * broadcastTo S1024x1024 (rsqrt (addf (shapeCast S1x1024 var shapeCasts_S1x1024_S1x1024) (broadcast S1x1024 (Scalar.ofBits (F := Ideal) .f32 0x3A83126F#32)))) broadcasts_S1x1024_S1024x1024 (ix2 p r)
      + broadcastTo S1024x1024 (shapeCast S1x1024 shift shapeCasts_S1x1024_S1x1024) broadcasts_S1x1024_S1024x1024 (ix2 p r) = _
  rw [Cert.Lib.Rows.bcastRow_apply, Cert.Lib.Rows.bcastRow_apply, Cert.Lib.Rows.bcastRow_apply,
    shapeCast_self, shapeCast_self, shapeCast_self]
  rfl

end Cert.KernelIdeal.PayloadRead

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.Blocks.lean ====
/-
  The blocks the pipeline hands the body at a grid point, read off the argument arrays.

  The grid is 8 × 4 × 8: point t is (i, j, s) with i = t / 32 the row block, j = (t / 8) mod 4 the column block and
  s = t mod 8 the step along the contraction. The input block at t is rows 1024 i … of X and columns 512 s …; the
  weight block is rows 512 s … of W and columns 1024 j …; the three 1 × 1024 row blocks are columns 1024 j … of the
  shift, mean and variance vectors, which the host has reshaped to 1 × 4096 rows before the call; the output block
  is rows 1024 i … and columns 1024 j … of the result.
-/
import proofs.«112949_j79912161509543_1_alg».proof.Proof.Gen.KernelIdeal.Frame
import proofs.«112949_j79912161509543_1_alg».proof.Proof.Spec
import proofs.«112949_j79912161509543_1_alg».proof.Proof.LibMergeRows
import Idealize.ShloMosaic.Lib.Pipeline.Value
import Idealize.ShloMosaic.Lib.StableHlo.Run

noncomputable section

namespace Cert.KernelIdeal.Blocks

open Cert.KernelIdeal Cert.KernelIdeal.Gen Cert.BinDense
open Idealize.ShloMosaic Idealize.ShloMosaic.TcCoe Idealize.ShloMosaic.ValueIdx Idealize.SL.Sem

variable (m : (ℓ : Loc nD τ sig) → Buf (Elt Ideal) ℓ)

/-! ## Which block each window is on at point t -/

theorem index_x : ∀ t : Fin cfg0.N, win0_0.index t (0 : Fin 2) = t.val / 32 ∧ win0_0.index t (1 : Fin 2) = t.val % 8 :=
  (by decide +kernel : ∀ t : Fin grid0.N, win0_0.index t (0 : Fin 2) = t.val / 32 ∧ win0_0.index t (1 : Fin 2) = t.val % 8)

theorem index_w : ∀ t : Fin cfg0.N, win0_1.index t (0 : Fin 2) = t.val % 8 ∧ win0_1.index t (1 : Fin 2) = t.val / 8 % 4 :=
  (by decide +kernel : ∀ t : Fin grid0.N, win0_1.index t (0 : Fin 2) = t.val % 8 ∧ win0_1.index t (1 : Fin 2) = t.val / 8 % 4)

theorem index_shift : ∀ t : Fin cfg0.N, win0_2.index t (0 : Fin 2) = 0 ∧ win0_2.index t (1 : Fin 2) = t.val / 8 % 4 :=
  (by decide +kernel : ∀ t : Fin grid0.N, win0_2.index t (0 : Fin 2) = 0 ∧ win0_2.index t (1 : Fin 2) = t.val / 8 % 4)

theorem index_mean : ∀ t : Fin cfg0.N, win0_3.index t (0 : Fin 2) = 0 ∧ win0_3.index t (1 : Fin 2) = t.val / 8 % 4 :=
  (by decide +kernel : ∀ t : Fin grid0.N, win0_3.index t (0 : Fin 2) = 0 ∧ win0_3.index t (1 : Fin 2) = t.val / 8 % 4)

theorem index_var : ∀ t : Fin cfg0.N, win0_4.index t (0 : Fin 2) = 0 ∧ win0_4.index t (1 : Fin 2) = t.val / 8 % 4 :=
  (by decide +kernel : ∀ t : Fin grid0.N, win0_4.index t (0 : Fin 2) = 0 ∧ win0_4.index t (1 : Fin 2) = t.val / 8 % 4)

theorem index_out : ∀ t : Fin cfg0.N, win0_5.index t (0 : Fin 2) = t.val / 32 ∧ win0_5.index t (1 : Fin 2) = t.val / 8 % 4 :=
  (by decide +kernel : ∀ t : Fin grid0.N, win0_5.index t (0 : Fin 2) = t.val / 32 ∧ win0_5.index t (1 : Fin 2) = t.val / 8 % 4)

/-! ## The rows the host reshaped before the call -/

/-- The 1 × 4096 row of shifts the region finds is the shift vector with a leading unit axis. -/
theorem row_shift (c : Dev nD) :
    (V m c main_v0 : S1x4096.Idx → EReal) = shapeCast S1x4096 (m ((c : Thread nD τ).loc main_arg2)) shapeCasts_S4096_S1x4096 := by
  dsimp only [Gen.V, Gen.hostOps0]
  after_results
  rfl

theorem row_mean (c : Dev nD) :
    (V m c main_v1 : S1x4096.Idx → EReal) = shapeCast S1x4096 (m ((c : Thread nD τ).loc main_arg3)) shapeCasts_S4096_S1x4096 := by
  dsimp only [Gen.V, Gen.hostOps0]
  after_results
  rfl

theorem row_var (c : Dev nD) :
    (V m c main_v2 : S1x4096.Idx → EReal) = shapeCast S1x4096 (m ((c : Thread nD τ).loc main_arg4)) shapeCasts_S4096_S1x4096 := by
  dsimp only [Gen.V, Gen.hostOps0]
  after_results
  rfl

/-! ## The blocks at an entry -/

/-- The input block at point t, at (p, k): X at row 1024 (t / 32) + p and column 512 (t mod 8) + k. -/
theorem x_block (c : Dev nD) (t : Fin cfg0.N) (p : Fin 1024) (k : Fin 512) :
    (iblk m c 0 t : Vec Ideal S1024x512 .f32) (ix2 p k)
      = at2 (m ((c : Thread nD τ).loc main_arg0)) (1024 * (t.val / 32) + p.val) (512 * (t.val % 8) + k.val) := by
  unfold iblk
  rw [View.read_apply]
  show V m c main_arg0 (((cfg0.win 0).blk t).view.emb (ix2 p k)) = _
  rw [V_main_arg0]
  have hp := p.isLt
  have hk := k.isLt
  have ht : t.val < 256 := lt_of_lt_of_eq t.isLt N_0
  obtain ⟨e0, e1⟩ := index_x t
  unfold at2
  rw [dif_pos ⟨by omega, by omega⟩]
  refine congrArg _ (funext fun a => Fin.ext ?_)
  match a with
  | ⟨0, _⟩ => show win0_0.index t (0 : Fin 2) * 1024 + 1 * p.val = 1024 * (t.val / 32) + p.val; rw [e0]; omega
  | ⟨1, _⟩ => show win0_0.index t (1 : Fin 2) * 512 + 1 * k.val = 512 * (t.val % 8) + k.val; rw [e1]; omega

/-- The weight block at point t, at (k, r): W at row 512 (t mod 8) + k and column 1024 ((t / 8) mod 4) + r. -/
theorem w_block (c : Dev nD) (t : Fin cfg0.N) (k : Fin 512) (r : Fin 1024) :
    (iblk m c 1 t : Vec Ideal S512x1024 .f32) (ix2 k r)
      = at2 (m ((c : Thread nD τ).loc main_arg1)) (512 * (t.val % 8) + k.val) (1024 * (t.val / 8 % 4) + r.val) := by
  unfold iblk
  rw [View.read_apply]
  show V m c main_arg1 (((cfg0.win 1).blk t).view.emb (ix2 k r)) = _
  rw [V_main_arg1]
  have hr := r.isLt
  have hk := k.isLt
  have ht : t.val < 256 := lt_of_lt_of_eq t.isLt N_0
  obtain ⟨e0, e1⟩ := index_w t
  unfold at2
  rw [dif_pos ⟨by omega, by omega⟩]
  refine congrArg _ (funext fun a => Fin.ext ?_)
  match a with
  | ⟨0, _⟩ => show win0_1.index t (0 : Fin 2) * 512 + 1 * k.val = 512 * (t.val % 8) + k.val; rw [e0]; omega
  | ⟨1, _⟩ => show win0_1.index t (1 : Fin 2) * 1024 + 1 * r.val = 1024 * (t.val / 8 % 4) + r.val; rw [e1]; omega

/-- The shift row block at point t, at column r: the shift of feature 1024 ((t / 8) mod 4) + r. -/
theorem shift_block (c : Dev nD) (t : Fin cfg0.N) (r : Fin 1024) (q : Fin 4096) (hq : q.val = 1024 * (t.val / 8 % 4) + r.val) :
    (iblk m c 2 t : Vec Ideal S1x1024 .f32) (ix2 (0 : Fin 1) r) = m ((c : Thread nD τ).loc main_arg2) (ix1 q) := by
  unfold iblk
  rw [View.read_apply]
  show V m c main_v0 (((cfg0.win 2).blk t).view.emb (ix2 (0 : Fin 1) r)) = _
  rw [row_shift]
  obtain ⟨e0, e1⟩ := index_shift t
  have e : ((cfg0.win 2).blk t).view.emb (ix2 (0 : Fin 1) r) = ix2 (0 : Fin 1) q := funext fun a => Fin.ext (by
    match a with
    | ⟨0, _⟩ => show win0_2.index t (0 : Fin 2) * 1 + 1 * 0 = 0; rw [e0]
    | ⟨1, _⟩ => show win0_2.index t (1 : Fin 2) * 1024 + 1 * r.val = q.val; rw [e1, hq]; omega)
  rw [e]
  exact Cert.Lib.MergeRows.row_apply _ _ q

/-- The mean row block at point t, at column r. -/
theorem mean_block (c : Dev nD) (t : Fin cfg0.N) (r : Fin 1024) (q : Fin 4096) (hq : q.val = 1024 * (t.val / 8 % 4) + r.val) :
    (iblk m c 3 t : Vec Ideal S1x1024 .f32) (ix2 (0 : Fin 1) r) = m ((c : Thread nD τ).loc main_arg3) (ix1 q) := by
  unfold iblk
  rw [View.read_apply]
  show V m c main_v1 (((cfg0.win 3).blk t).view.emb (ix2 (0 : Fin 1) r)) = _
  rw [row_mean]
  obtain ⟨e0, e1⟩ := index_mean t
  have e : ((cfg0.win 3).blk t).view.emb (ix2 (0 : Fin 1) r) = ix2 (0 : Fin 1) q := funext fun a => Fin.ext (by
    match a with
    | ⟨0, _⟩ => show win0_3.index t (0 : Fin 2) * 1 + 1 * 0 = 0; rw [e0]
    | ⟨1, _⟩ => show win0_3.index t (1 : Fin 2) * 1024 + 1 * r.val = q.val; rw [e1, hq]; omega)
  rw [e]
  exact Cert.Lib.MergeRows.row_apply _ _ q

/-- The variance row block at point t, at column r. -/
theorem var_block (c : Dev nD) (t : Fin cfg0.N) (r : Fin 1024) (q : Fin 4096) (hq : q.val = 1024 * (t.val / 8 % 4) + r.val) :
    (iblk m c 4 t : Vec Ideal S1x1024 .f32) (ix2 (0 : Fin 1) r) = m ((c : Thread nD τ).loc main_arg4) (ix1 q) := by
  unfold iblk
  rw [View.read_apply]
  show V m c main_v2 (((cfg0.win 4).blk t).view.emb (ix2 (0 : Fin 1) r)) = _
  rw [row_var]
  obtain ⟨e0, e1⟩ := index_var t
  have e : ((cfg0.win 4).blk t).view.emb (ix2 (0 : Fin 1) r) = ix2 (0 : Fin 1) q := funext fun a => Fin.ext (by
    match a with
    | ⟨0, _⟩ => show win0_4.index t (0 : Fin 2) * 1 + 1 * 0 = 0; rw [e0]
    | ⟨1, _⟩ => show win0_4.index t (1 : Fin 2) * 1024 + 1 * r.val = q.val; rw [e1, hq]; omega)
  rw [e]
  exact Cert.Lib.MergeRows.row_apply _ _ q

end Cert.KernelIdeal.Blocks

end
-- ==== Proof.Accumulate.lean ====
/-
  The accumulator over a run of eight consecutive grid points, and the block the last point writes.

  Grid point n = 32 i + 8 j + s adds to the accumulator, at (p, r), the stretch s of the inner product of row
  1024 i + p of sign X with column 1024 j + r of sign W: the sum over the 512 inner positions 512 s + k. The first
  point of a run (s = 0) starts from the zero block, every later point from what the point before left. After point
  8 q + s the accumulator therefore holds zero plus the stretches 0 … s, and after the last point of the run the
  eight stretches, which make up the whole inner product. That point writes the output block: the inner product
  minus the mean, times the reciprocal square root of the variance plus the constant, plus the shift — the layer's
  entry at row 1024 i + p and column 1024 j + r.
-/
import proofs.«112949_j79912161509543_1_alg».proof.Proof.Gen.KernelIdeal.Value
import proofs.«112949_j79912161509543_1_alg».proof.Proof.Pieces
import proofs.«112949_j79912161509543_1_alg».proof.Proof.PayloadRead
import proofs.«112949_j79912161509543_1_alg».proof.Proof.Blocks
import proofs.«112949_j79912161509543_1_alg».proof.Proof.Spec

noncomputable section

namespace Cert.KernelIdeal.Accumulate

open Cert.KernelIdeal Cert.KernelIdeal.Gen Cert.KernelIdeal.Value Cert.BinDense
open Idealize.ShloMosaic Idealize.ShloMosaic.TcCoe Idealize.ShloMosaic.ValueIdx Idealize.SL.Sem
open scoped BigOperators

variable (m : (ℓ : Loc nD τ sig) → Buf (Elt Ideal) ℓ) (c : Dev nD)

/-- What grid point n adds to the accumulator at a block entry: its stretch of the inner product. -/
def addend (n : Nat) (i : S1024x1024.Idx) : EReal :=
  ∑ k : Fin 512, term (m ((c : Thread nD τ).loc main_arg0)) (m ((c : Thread nD τ).loc main_arg1))
    (1024 * (n / 32) + (i 0).val) (1024 * (n / 8 % 4) + (i 1).val) (512 * (n % 8) + k.val)

/-- The inner product of the signs of the two blocks at point t is that point's addend. -/
theorem block_sum (t : Fin cfg0.N) (p r : Fin 1024) :
    (∑ k : Fin 512, sgn ((iblk m c 0 t : Vec Ideal S1024x512 .f32) (ix2 p k)) * sgn ((iblk m c 1 t : Vec Ideal S512x1024 .f32) (ix2 k r)))
      = addend m c t.val (ix2 p r) := by
  unfold addend term
  refine Finset.sum_congr rfl fun k _ => ?_
  rw [Blocks.x_block m c t p k, Blocks.w_block m c t k r]

/-- What a point leaves in the accumulator over what the point before left: the zero block (at the first point of
    a run) or the earlier contents, plus the point's addend. -/
theorem step_apply (n : Nat) (h : n < cfg0.N) (acc : Vec Ideal S1024x1024 .f32) (p r : Fin 1024) :
    scAt0_0 m c n h acc (ix2 p r) = (if n % 8 = 0 then 0 else acc (ix2 p r)) + addend m c n (ix2 p r) := by
  have hN : n < 256 := lt_of_lt_of_eq h N_0
  unfold scAt0_0
  by_cases h0 : n % 8 = 0
  · have h1 : ¬n % 8 = 7 := by omega
    rw [dif_pos h0, dif_neg h1, if_pos h0]
    refine (congrFun (Pieces.acc_first c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N))) (ix2 p r)).trans ?_
    refine (PayloadRead.update_apply _ _ _ p r).trans ?_
    rw [PayloadRead.zero_apply, block_sum m c ⟨n, h⟩ p r]
  · rw [dif_neg h0, if_neg h0]
    by_cases h1 : n % 8 = 7
    · rw [dif_pos h1]
      refine (congrFun (Pieces.acc_last c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc) (ix2 p r)).trans ?_
      refine (PayloadRead.update_apply _ _ _ p r).trans ?_
      rw [block_sum m c ⟨n, h⟩ p r]
    · rw [dif_neg h1]
      refine (congrFun (Pieces.acc_middle c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) acc) (ix2 p r)).trans ?_
      refine (PayloadRead.update_apply _ _ _ p r).trans ?_
      rw [block_sum m c ⟨n, h⟩ p r]

/-- The accumulator after point t: zero plus the addends of the run's points up to t. -/
theorem acc_after (t : Fin cfg0.N) (p r : Fin 1024) :
    (outsAt0 m c t.val t.isLt).2 (ix2 p r)
      = 0 + ∑ s ∈ Finset.range (t.val % 8 + 1), addend m c (8 * (t.val / 8) + s) (ix2 p r) := by
  rw [soutsAt0_0_eq m c t]
  refine Pipeline.accAt_add_apply (ι := S1024x1024.Idx) (β := EReal)
    (fun n h => scAt0_0 m c n h (VS0_0.read (Elt Ideal) VS0_0.junk)) (scAt0_0 m c) (fun _ => 0) (addend m c)
    (8 * (t.val / 8)) 7 ?_ ?_ (t.val % 8) (by omega) _ (ix2 p r)
  · intro h i
    obtain ⟨p', r', rfl⟩ : ∃ (p' r' : Fin 1024), i = ix2 p' r' := ⟨i 0, i 1, eq_ix2 i⟩
    refine (step_apply m c _ h _ p' r').trans ?_
    rw [if_pos (by omega)]
  · intro n h acc i hb he
    obtain ⟨p', r', rfl⟩ : ∃ (p' r' : Fin 1024), i = ix2 p' r' := ⟨i 0, i 1, eq_ix2 i⟩
    refine (step_apply m c n h acc p' r').trans ?_
    rw [if_neg (by omega)]

/-- The eight addends of a run make up the whole inner product of the run's row and column. -/
theorem run_total (t : Fin cfg0.N) (p r : Fin 1024) (P Q : Nat) (hP : P = 1024 * (t.val / 32) + p.val)
    (hQ : Q = 1024 * (t.val / 8 % 4) + r.val) :
    ∑ s ∈ Finset.range 8, addend m c (8 * (t.val / 8) + s) (ix2 p r)
      = dense (m ((c : Thread nD τ).loc main_arg0)) (m ((c : Thread nD τ).loc main_arg1)) P Q := by
  rw [← dense_blocks]
  refine Finset.sum_congr rfl fun s hs => Finset.sum_congr rfl fun k _ => ?_
  have hs' : s < 8 := Finset.mem_range.mp hs
  have e1 : 1024 * ((8 * (t.val / 8) + s) / 32) + p.val = P := by omega
  have e2 : 1024 * ((8 * (t.val / 8) + s) / 8 % 4) + r.val = Q := by omega
  have e3 : 512 * ((8 * (t.val / 8) + s) % 8) + k.val = 512 * s + k.val := by omega
  show term _ _ (1024 * ((8 * (t.val / 8) + s) / 32) + p.val) (1024 * ((8 * (t.val / 8) + s) / 8 % 4) + r.val)
    (512 * ((8 * (t.val / 8) + s) % 8) + k.val) = _
  rw [e1, e2, e3]

/-- The block the last point of a run writes, at (p, r): the layer's entry at the run's row and column. -/
theorem out_apply (t : Fin cfg0.N) (h0 : ¬t.val % 8 = 0) (h1 : t.val % 8 = 7) (p r : Fin 1024) (P : Fin 8192) (Q : Fin 4096)
    (hP : P.val = 1024 * (t.val / 32) + p.val) (hQ : Q.val = 1024 * (t.val / 8 % 4) + r.val) :
    out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (iblk m c 4 t)
        (outsAt0 m c (t.val - 1) (Nat.lt_of_le_of_lt (Nat.sub_le _ _) t.isLt)).2 (ix2 p r)
      = entry (m ((c : Thread nD τ).loc main_arg0)) (m ((c : Thread nD τ).loc main_arg1)) (m ((c : Thread nD τ).loc main_arg2))
          (m ((c : Thread nD τ).loc main_arg3)) (m ((c : Thread nD τ).loc main_arg4)) P Q := by
  refine (congrFun (Pieces.out_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (iblk m c 4 t)
    (outsAt0 m c (t.val - 1) (Nat.lt_of_le_of_lt (Nat.sub_le _ _) t.isLt)).2) (ix2 p r)).trans ?_
  refine (PayloadRead.normalise_apply _ _ _ _ p r).trans ?_
  have hA : (outsAt0 m c t.val t.isLt).2
      = k0_pay2 (iblk m c 0 t) (iblk m c 1 t) (outsAt0 m c (t.val - 1) (Nat.lt_of_le_of_lt (Nat.sub_le _ _) t.isLt)).2 := by
    rw [outsAt0_C m c t h0 h1]
    dsimp only
    exact Pieces.acc_last c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun hh => h0 ((hcond0_0 t).mp hh)) ((hcond0_1 t).mpr h1) (iblk m c 0 t) (iblk m c 1 t) (iblk m c 2 t) (iblk m c 3 t) (iblk m c 4 t)
      (outsAt0 m c (t.val - 1) (Nat.lt_of_le_of_lt (Nat.sub_le _ _) t.isLt)).2
  rw [← hA, acc_after m c t p r, h1, run_total m c t p r P.val Q.val hP hQ, zero_add,
    Blocks.var_block m c t r Q hQ, Blocks.mean_block m c t r Q hQ, Blocks.shift_block m c t r Q hQ]
  rfl

end Cert.KernelIdeal.Accumulate

end
-- ==== Proof.Final.lean ====
/-
  The result array after the idealized kernel's run.

  The output window is written back at the last point of every run of eight, t = 32 i + 8 j + 7, and its block there
  is rows 1024 i … and columns 1024 j … of the result. What that point writes is, entry by entry, the layer's value
  at the block's row and column, so the block written is the block of the layer's array. Every index (b, n) of the
  8192 × 4096 result lies in the block of the run i = b / 1024, j = n / 1024, so the whole array ends at the layer's
  array of the arguments.
-/
import proofs.«112949_j79912161509543_1_alg».proof.Proof.Accumulate

noncomputable section

namespace Cert.KernelIdeal.Final

open Cert.KernelIdeal Cert.KernelIdeal.Gen Cert.KernelIdeal.Value Cert.BinDense
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The layer's array of the argument arrays on core c. -/
abbrev result (c : Dev nD) : Buf (Elt Ideal) ((c : Thread nD τ).loc main_v3) :=
  G (m ((c : Thread nD τ).loc main_arg0)) (m ((c : Thread nD τ).loc main_arg1)) (m ((c : Thread nD τ).loc main_arg2))
    (m ((c : Thread nD τ).loc main_arg3)) (m ((c : Thread nD τ).loc main_arg4))

/-- What a flushing point writes back is its block of the layer's array. -/
theorem flushed_eq (c : Dev nD) (t : Fin cfg0.N) (hf : (cfg0.win 5).flush t = true) :
    (dats m 0 c).flushed 5 t = ((cfg0.win 5).blk t).view.read (Elt Ideal) (result m c) := by
  have h1 : t.val % 8 = 7 := (flush0_5 t).mp hf
  have h0 : ¬t.val % 8 = 0 := by omega
  have ht : t.val < 256 := lt_of_lt_of_eq t.isLt N_0
  obtain ⟨e0, e1⟩ := Blocks.index_out t
  rw [flushed5_C m c t h0 h1]
  funext j
  obtain ⟨p, r, rfl⟩ : ∃ (p r : Fin 1024), j = ix2 p r := ⟨j 0, j 1, eq_ix2 j⟩
  have hp := p.isLt
  have hr := r.isLt
  have e : ((cfg0.win 5).blk t).view.emb (ix2 p r)
      = ix2 (⟨1024 * (t.val / 32) + p.val, by omega⟩ : Fin 8192) (⟨1024 * (t.val / 8 % 4) + r.val, by omega⟩ : Fin 4096) :=
    funext fun a => Fin.ext (by
      match a with
      | ⟨0, _⟩ => show win0_5.index t (0 : Fin 2) * 1024 + 1 * p.val = 1024 * (t.val / 32) + p.val; rw [e0]; omega
      | ⟨1, _⟩ => show win0_5.index t (1 : Fin 2) * 1024 + 1 * r.val = 1024 * (t.val / 8 % 4) + r.val; rw [e1]; omega)
  refine (Accumulate.out_apply m c t h0 h1 p r ⟨1024 * (t.val / 32) + p.val, by omega⟩ ⟨1024 * (t.val / 8 % 4) + r.val, by omega⟩ rfl rfl).trans ?_
  rw [View.read_apply, e]
  rfl

/-- An index of the result is in point t's block iff each coordinate is in the block's range on its axis. -/
theorem mem_blk (t : Fin cfg0.N) (i : S8192x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v3).slice (win0_5.rect t)).set ↔ _
  rw [View.set_slice_whole, Rect.mem_set_unit]
  exact Iff.rfl

/-- Every index of the result lies in the block some run's last point writes back. -/
theorem cover (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  have hlt : 32 * ((i 0).val / 1024) + 8 * ((i 1).val / 1024) + 7 < cfg0.N := lt_of_lt_of_eq (by omega) (N_0).symm
  refine ⟨⟨32 * ((i 0).val / 1024) + 8 * ((i 1).val / 1024) + 7, hlt⟩, (flush0_5 _).mpr (by show (32 * ((i 0).val / 1024) + 8 * ((i 1).val / 1024) + 7) % 8 = 7; omega), ?_⟩
  obtain ⟨e0, e1⟩ := Blocks.index_out ⟨32 * ((i 0).val / 1024) + 8 * ((i 1).val / 1024) + 7, hlt⟩
  rw [mem_blk]
  intro a
  match a with
  | ⟨0, _⟩ =>
    show win0_5.index _ (0 : Fin 2) * 1024 ≤ (i 0).val ∧ (i 0).val < win0_5.index _ (0 : Fin 2) * 1024 + 1024
    rw [e0]
    show (32 * ((i 0).val / 1024) + 8 * ((i 1).val / 1024) + 7) / 32 * 1024 ≤ (i 0).val
      ∧ (i 0).val < (32 * ((i 0).val / 1024) + 8 * ((i 1).val / 1024) + 7) / 32 * 1024 + 1024
    omega
  | ⟨1, _⟩ =>
    show win0_5.index _ (1 : Fin 2) * 1024 ≤ (i 1).val ∧ (i 1).val < win0_5.index _ (1 : Fin 2) * 1024 + 1024
    rw [e1]
    show (32 * ((i 0).val / 1024) + 8 * ((i 1).val / 1024) + 7) / 8 % 4 * 1024 ≤ (i 1).val
      ∧ (i 1).val < (32 * ((i 0).val / 1024) + 8 * ((i 1).val / 1024) + 7) / 8 % 4 * 1024 + 1024
    omega

/-- The result array after the run is the layer's array. -/
theorem final (c : Dev nD) : (dats m 0 c).arrAt 5 cfg0.N = result m c :=
  (dats m 0 c).arrAt_eq_of_cover 5 (result m c) (flushed_eq m c) cover

/-- The idealized kernel's run: the result at the layer's array, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Final

end
-- ==== Proof.lean ====
/-
  A binarized dense layer followed by a batch-norm shift: the kernel against its reference, on the extended reals.

  Both programs replace every entry of the 8192 × 4096 input and of the 4096 × 4096 weights by its sign (+1 for an
  entry that is at least zero, -1 otherwise), multiply the two sign matrices, subtract the moving mean of each output
  feature, multiply by the reciprocal square root of the moving variance plus a constant, and add the feature's shift.
  The reference takes the whole matrix product at once. The kernel walks a grid of 8 × 4 × 8 points: for each of the
  8 × 4 output tiles of 1024 × 1024 it cuts the 4096 inner positions into 8 stretches of 512, keeps the partial
  products in an accumulator that it zeroes at the first stretch and adds to at every stretch, and at the last stretch
  normalises the accumulator into the output tile.

  The two results agree entry by entry because the eight stretch sums, added one after the other onto zero, are the
  whole inner product: addition on the extended reals is associative and commutative and zero is neutral. No
  cancellation and no distributivity is used, so the inputs need not be finite for this step; the signs are the reals
  +1 and -1 whatever the entries are. The change of float format on the way into the matrix unit is the identity on
  the extended reals, the matrix unit's product into a zero accumulator and the host's product are the same plain sum,
  the reciprocal square roots are the same function, and the constant added to the variance is the same word on both
  sides. The idealized kernel is the kernel's own text read on the extended reals, so nothing is owed for it.
-/
import proofs.«112949_j79912161509543_1_alg».proof.Defs
import proofs.«112949_j79912161509543_1_alg».proof.Proof.Gen.Kernel
import proofs.«112949_j79912161509543_1_alg».proof.Proof.Gen.Kernel.Skeleton
import proofs.«112949_j79912161509543_1_alg».proof.Proof.Gen.Kernel.Launch
import proofs.«112949_j79912161509543_1_alg».proof.Proof.Gen.Kernel.Points
import proofs.«112949_j79912161509543_1_alg».proof.Proof.Gen.Kernel.Frame
import proofs.«112949_j79912161509543_1_alg».proof.Proof.Gen.KernelIdeal
import proofs.«112949_j79912161509543_1_alg».proof.Proof.Gen.KernelIdeal.Skeleton
import proofs.«112949_j79912161509543_1_alg».proof.Proof.Gen.KernelIdeal.Launch
import proofs.«112949_j79912161509543_1_alg».proof.Proof.Gen.KernelIdeal.Points
import proofs.«112949_j79912161509543_1_alg».proof.Proof.Gen.KernelIdeal.Frame
import proofs.«112949_j79912161509543_1_alg».proof.Proof.Gen.ReferenceIdeal
import proofs.«112949_j79912161509543_1_alg».proof.Proof.Gen.Pre_finite_inputs
import proofs.«112949_j79912161509543_1_alg».proof.Proof.Gen.KernelIdeal.Value
import proofs.«112949_j79912161509543_1_alg».proof.Proof.Gen.ReferenceIdeal.Run
import proofs.«112949_j79912161509543_1_alg».proof.Proof.Gen.ReferenceIdeal.Read
import proofs.«112949_j79912161509543_1_alg».proof.Proof.RefRead
import proofs.«112949_j79912161509543_1_alg».proof.Proof.Final
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, both programs end with the layer's array of those arguments. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq, (hagree c).1, (hagree c).2.1,
    (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
